-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S2000x128 : Shape := ⟨2, ![2000, 128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 65
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S50000x128, .f32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S1x128, .f32⟩
  | .local _ .vmem, ⟨10, _⟩ => ⟨S128x128, .f32⟩
  | .local _ .vmem, ⟨11, _⟩ => ⟨S128x128, .f32⟩
  | .local _ .vmem, ⟨12, _⟩ => ⟨S2000x128, .f32⟩
  | .local _ .vmem, ⟨13, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  dot_S2000x128_S128x128_S2000x128_1_0_0_1_n_n_wf : DotDims.WF S2000x128 S128x128 S2000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 71
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.LibDot.lean ====
/-
  A matrix product read at an index, on the extended reals.

  For a rows × contraction by contraction × columns product — the dimension numbers that contract the left operand's
  second axis with the right operand's first, with no batch axis — the entry at (i, j) of the host's `dot_general`,
  and of a `tpu.matmul` accumulated into the zero splat, is the plain sum over the contraction coordinate k of
  l (i, k) · r (k, j). The sum over the product's own contraction index is re-indexed through the bijection between a
  one-axis contraction index and its coordinate; the operand indices are computed from the dimension numbers.
  Nothing here needs finiteness: only that the sum is re-indexed.
-/
import Idealize.ShloMosaic.Lib.ValueIdx
import Idealize.ShloMosaic.PureOps.Ideal.Laws

noncomputable section

namespace Cert.LibDot

open Idealize.ShloMosaic Idealize.ShloMosaic.ValueIdx

variable {M K N : Nat}

/-- The contraction of row `y 0` of `l` with column `y 1` of `r`: the sum over the product's contraction index is
    the sum over the one contracted coordinate. -/
theorem sum_plain (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (y : (⟨2, ![M, N]⟩ : Shape).Idx) :
    ∑ q : d.contr.Idx, l (d.lhsIdx y q) * r (d.rhsIdx y q) = ∑ k : Fin K, l (ix2 (y 0) k) * r (ix2 k (y 1)) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 k (y 1) := funext fun a => Fin.ext (by
    match a with
    | ⟨0, _⟩ => exact (DotDims.rhsIdx_val_of_single _ rfl y _).trans hk
    | ⟨1, _⟩ =>
      unfold DotDims.rhsIdx
      rw [dif_neg (by simp), dif_pos (by simp)]
      rfl)
  rw [el, er]
  rfl

variable {φ₁ φ₂ : FTy}

/-- The host's `dot_general` of those dimension numbers, at an index: the sum over the contracted coordinate. -/
theorem dotGeneral_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (y : (⟨2, ![M, N]⟩ : Shape).Idx) :
    FloatOps.dotGeneral d prec sched l r y = ∑ k : Fin K, l (ix2 (y 0) k) * r (ix2 k (y 1)) := by
  rw [Ideal.dotGeneral_apply]
  exact sum_plain d hlc hrc hln hrn hlb hrb l r y

/-- A `tpu.matmul` of those dimension numbers into the zero accumulator, at an index: the same sum. -/
theorem matmul_zero_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![M, K]⟩ φ₁) (r : FVec Ideal ⟨2, ![K, N]⟩ φ₂) (y : (⟨2, ![M, N]⟩ : Shape).Idx) :
    FloatOps.matmul d prec l r (constant ⟨2, ![M, N]⟩ .f32 0x00000000#32) y
      = ∑ k : Fin K, l (ix2 (y 0) k) * r (ix2 k (y 1)) := by
  rw [Ideal.matmul_constant_zero_apply]
  exact sum_plain d hlc hrc hln hrn hlb hrb l r y

end Cert.LibDot

end
-- ==== Proof.Layer.lean ====
/-
  One graph-convolution layer with a change term, entry by entry on the extended reals.

  With a the aggregated neighbour features (an R × 128 matrix), b the bias row (1 × 128), x the node features
  (R × 128) and W0, Wt two 128 × 128 weight matrices, the layer's result is

      h + x · W0 + (h − x) · Wt        where  h = a + b (the bias added to every row),

  the two matrix products read entry by entry as sums over the contracted coordinate. `prodAt` is one entry of a
  product of an R × 128 matrix with a 128 × 128 matrix, `layerAt` one entry of the layer's result. Both are stated
  over the row count R, so the same two definitions serve a block of rows and the whole array; an entry depends only
  on ONE row of the row-indexed operands (`prodAt_rows`, `layerAt_rows`), which is what lets a block of rows be
  computed from the corresponding block of the operands. Nothing here needs finiteness: no term is moved across a sum.
-/
import Idealize.ShloMosaic.Lib.ValueIdx
import Idealize.ShloMosaic.PureOps.Ideal

noncomputable section

namespace Cert.Layer

open Idealize.ShloMosaic Idealize.ShloMosaic.ValueIdx

variable {R R' : Nat}

/-- Entry (p, q) of the product of an R × 128 matrix with a 128 × 128 matrix: the sum over k of l(p,k) · w(k,q). -/
def prodAt (l : (⟨2, ![R, 128]⟩ : Shape).Idx → EReal) (w : (⟨2, ![128, 128]⟩ : Shape).Idx → EReal)
    (p : Fin R) (q : Fin 128) : EReal :=
  ∑ k : Fin 128, l (ix2 p k) * w (ix2 k q)

/-- Entry (p, q) of the layer's result: with h = a + b, the entry of h + x · W0 + (h − x) · Wt, added in that
    order. -/
def layerAt (a x : (⟨2, ![R, 128]⟩ : Shape).Idx → EReal) (b : (⟨2, ![1, 128]⟩ : Shape).Idx → EReal)
    (w0 wt : (⟨2, ![128, 128]⟩ : Shape).Idx → EReal) (p : Fin R) (q : Fin 128) : EReal :=
  ((a (ix2 p q) + b (ix2 0 q)) + ∑ k : Fin 128, x (ix2 p k) * w0 (ix2 k q))
    + ∑ k : Fin 128, ((a (ix2 p k) + b (ix2 0 k)) - x (ix2 p k)) * wt (ix2 k q)

/-- The product as a whole array. -/
def prod (l : (⟨2, ![R, 128]⟩ : Shape).Idx → EReal) (w : (⟨2, ![128, 128]⟩ : Shape).Idx → EReal) :
    (⟨2, ![R, 128]⟩ : Shape).Idx → EReal :=
  fun i => prodAt l w (i 0) (i 1)

/-- The layer's result as a whole array. -/
def layer (a x : (⟨2, ![R, 128]⟩ : Shape).Idx → EReal) (b : (⟨2, ![1, 128]⟩ : Shape).Idx → EReal)
    (w0 wt : (⟨2, ![128, 128]⟩ : Shape).Idx → EReal) : (⟨2, ![R, 128]⟩ : Shape).Idx → EReal :=
  fun i => layerAt a x b w0 wt (i 0) (i 1)

/-- A bias vector as the one row of a 1 × 128 matrix. -/
def biasRow (v : (⟨1, ![128]⟩ : Shape).Idx → EReal) : (⟨2, ![1, 128]⟩ : Shape).Idx → EReal :=
  fun j => v (ix1 (j 1))

/-- The layer's result depends on the bias row only through its entries (0, k). -/
theorem layer_bias (a x : (⟨2, ![R, 128]⟩ : Shape).Idx → EReal) (b b' : (⟨2, ![1, 128]⟩ : Shape).Idx → EReal)
    (w0 wt : (⟨2, ![128, 128]⟩ : Shape).Idx → EReal) (hb : ∀ k : Fin 128, b' (ix2 0 k) = b (ix2 0 k)) :
    layer a x b' w0 wt = layer a x b w0 wt := by
  funext i
  unfold layer layerAt
  rw [hb (i 1)]
  refine congrArg₂ (· + ·) rfl ?_
  exact Finset.sum_congr rfl fun k _ => by rw [hb k]

/-- An entry of a product depends on one row of the left factor only. -/
theorem prodAt_rows (l : (⟨2, ![R, 128]⟩ : Shape).Idx → EReal) (l' : (⟨2, ![R', 128]⟩ : Shape).Idx → EReal)
    (w : (⟨2, ![128, 128]⟩ : Shape).Idx → EReal) (p : Fin R) (p' : Fin R') (q : Fin 128)
    (hl : ∀ k : Fin 128, l' (ix2 p' k) = l (ix2 p k)) :
    prodAt l' w p' q = prodAt l w p q := by
  unfold prodAt
  exact Finset.sum_congr rfl fun k _ => by rw [hl k]

/-- Two product entries are equal when the left factors agree on the entry's row and the right factors on its
    column. -/
theorem prodAt_congr (l : (⟨2, ![R, 128]⟩ : Shape).Idx → EReal) (l' : (⟨2, ![R', 128]⟩ : Shape).Idx → EReal)
    (w w' : (⟨2, ![128, 128]⟩ : Shape).Idx → EReal) (p : Fin R) (p' : Fin R') (q q' : Fin 128)
    (hl : ∀ k : Fin 128, l' (ix2 p' k) = l (ix2 p k)) (hw : ∀ k : Fin 128, w' (ix2 k q') = w (ix2 k q)) :
    prodAt l' w' p' q' = prodAt l w p q := by
  unfold prodAt
  exact Finset.sum_congr rfl fun k _ => by rw [hl k, hw k]

/-- Two entries of the layer's result are equal when the row-indexed operands agree on the entry's row, the bias
    rows agree, and the weight matrices agree on the entry's column. -/
theorem layerAt_congr (a x : (⟨2, ![R, 128]⟩ : Shape).Idx → EReal) (a' x' : (⟨2, ![R', 128]⟩ : Shape).Idx → EReal)
    (b b' : (⟨2, ![1, 128]⟩ : Shape).Idx → EReal) (w0 wt w0' wt' : (⟨2, ![128, 128]⟩ : Shape).Idx → EReal)
    (p : Fin R) (p' : Fin R') (q q' : Fin 128) (hq : q' = q)
    (ha : ∀ k : Fin 128, a' (ix2 p' k) = a (ix2 p k)) (hx : ∀ k : Fin 128, x' (ix2 p' k) = x (ix2 p k))
    (hb : ∀ k : Fin 128, b' (ix2 0 k) = b (ix2 0 k))
    (h0 : ∀ k : Fin 128, w0' (ix2 k q') = w0 (ix2 k q)) (ht : ∀ k : Fin 128, wt' (ix2 k q') = wt (ix2 k q)) :
    layerAt a' x' b' w0' wt' p' q' = layerAt a x b w0 wt p q := by
  subst hq
  unfold layerAt
  rw [ha q', hb q']
  refine congrArg₂ (· + ·) (congrArg₂ (· + ·) rfl (Finset.sum_congr rfl fun k _ => by rw [hx k, h0 k])) ?_
  exact Finset.sum_congr rfl fun k _ => by rw [ha k, hb k, hx k, ht k]

/-- An entry of the layer's result depends on one row of the aggregated features and of the node features only. -/
theorem layerAt_rows (a x : (⟨2, ![R, 128]⟩ : Shape).Idx → EReal) (a' x' : (⟨2, ![R', 128]⟩ : Shape).Idx → EReal)
    (b : (⟨2, ![1, 128]⟩ : Shape).Idx → EReal) (w0 wt : (⟨2, ![128, 128]⟩ : Shape).Idx → EReal)
    (p : Fin R) (p' : Fin R') (q : Fin 128)
    (ha : ∀ k : Fin 128, a' (ix2 p' k) = a (ix2 p k)) (hx : ∀ k : Fin 128, x' (ix2 p' k) = x (ix2 p k)) :
    layerAt a' x' b w0 wt p' q = layerAt a x b w0 wt p q := by
  unfold layerAt
  rw [ha q]
  refine congrArg₂ (· + ·) (congrArg₂ (· + ·) rfl (Finset.sum_congr rfl fun k _ => by rw [hx k])) ?_
  exact Finset.sum_congr rfl fun k _ => by rw [ha k, hx k]

end Cert.Layer

end
-- ==== Proof.RefValue.lean ====
/-
  The reference's result, read at an entry, with the aggregation stage carried as one function.

  The reference computes x · Wc, then the neighbour aggregation — self-loops appended to the edge list, the
  in-degrees by a scatter-add of ones, the symmetric normalisation deg^(-1/2) gathered at both ends of every edge,
  the gathered rows of x · Wc scaled by it and scatter-added by destination — then adds the bias and forms
  h + x · W0 + (h − x) · Wt. The aggregation depends on the node features and the first weight matrix only through
  the product x · Wc: `agg` names the whole stage as ONE function of that product and the edge list, and nothing
  here opens it. What follows the aggregation is `tail`, a function of the aggregated features as a VARIABLE: read
  at an entry, the two bias broadcasts read the bias vector at the column, the host products are sums over the
  contracted coordinate, and the three additions are entrywise — the layer's result `Layer.layer`.
-/
import proofs.«161953_j20409684591159_1_alg».proof.Proof.RefRead
import proofs.«161953_j20409684591159_1_alg».proof.Proof.LibDot
import proofs.«161953_j20409684591159_1_alg».proof.Proof.Layer
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Read

/-- The neighbour aggregation as one function of the projected features x · Wc and the edge list. -/
def agg (xw : FVec Ideal S50000x128 .f32) (ei : (⟨S2x800000, .i32⟩ : BufTy).Contents (Elt Ideal)) :
    FVec Ideal S50000x128 .f32 :=
  Host.scatterAdd (F := Ideal) scatter_S50000x128_S850000x1_S850000x128_1_0_0_1 (val_main_v41 (F := Ideal)) (val_main_v42 (F := Ideal) ei)
    (mulf (F := Ideal) (Host.gather gather_S50000x128_S850000x1_S850000x128_1_0_n_n_0_1_1128 xw (val_main_v36 (F := Ideal) ei))
      (val_main_v39 (F := Ideal) ei))

/-- The reference's aggregated features are that function of its own product x · Wc. -/
theorem agg_stage (x0 : FVec Ideal S50000x128 .f32) (x1 : (⟨S2x800000, .i32⟩ : BufTy).Contents (Elt Ideal))
    (x2 : FVec Ideal S128x128 .f32) :
    val_main_v43 (F := Ideal) x0 x1 x2 = agg (val_main_v30 (F := Ideal) x0 x2) x1 := by
  unfold val_main_v43 val_main_v40 val_main_v37 agg
  rfl

/-- The reference's product x · Wc is the product read entry by entry. -/
theorem product_stage (x0 : FVec Ideal S50000x128 .f32) (x2 : FVec Ideal S128x128 .f32) :
    val_main_v30 (F := Ideal) x0 x2 = Layer.prod (R := 50000) x0 x2 := by
  unfold val_main_v30
  exact funext fun y => LibDot.dotGeneral_plain_apply dot_S50000x128_S128x128_S50000x128_1_0_0_1_n_n rfl rfl rfl rfl rfl rfl
    none .single x0 x2 y

/-- What the reference does after the aggregation, as a function of the aggregated features. -/
def tail (a x0 : FVec Ideal S50000x128 .f32) (x3 : FVec Ideal S128 .f32)
    (x4 x5 : FVec Ideal S128x128 .f32) : FVec Ideal S50000x128 .f32 :=
  addf (F := Ideal) (addf (F := Ideal) (addf (F := Ideal) a (val_main_v45 (F := Ideal) x3)) (val_main_v47 (F := Ideal) x0 x4))
    (Host.dotGeneral (F := Ideal) dot_S50000x128_S128x128_S50000x128_1_0_0_1_n_n none
      (subf (F := Ideal) (addf (F := Ideal) a (val_main_v45 (F := Ideal) x3)) x0) x5)

/-- The reference's result is that function of its aggregated features. -/
theorem tail_stage (x0 : FVec Ideal S50000x128 .f32) (x1 : (⟨S2x800000, .i32⟩ : BufTy).Contents (Elt Ideal))
    (x2 : FVec Ideal S128x128 .f32) (x3 : FVec Ideal S128 .f32)
    (x4 x5 : FVec Ideal S128x128 .f32) :
    val_main_v51 (F := Ideal) x0 x1 x2 x3 x4 x5 = tail (val_main_v43 (F := Ideal) x0 x1 x2) x0 x3 x4 x5 := by
  unfold val_main_v51 val_main_v50 val_main_v49 val_main_v48 val_main_v46 tail
  rfl

/-- The bias broadcast over the rows, at an entry: the bias vector at the column. -/
theorem bias_apply (x3 : FVec Ideal S128 .f32) (p : Fin 50000) (k : Fin 128) :
    val_main_v45 (F := Ideal) x3 (ix2 p k) = Layer.biasRow x3 (ix2 0 k) := by
  refine (val_main_v45_apply (F := Ideal) x3 (ix2 p k)).trans ((val_main_v44_apply (F := Ideal) x3 _).trans ?_)
  unfold Layer.biasRow
  exact congrArg x3 (funext fun a => match a with | ⟨0, _⟩ => rfl)

/-- The aggregated features with the bias added to every row, at an entry. -/
theorem biased_apply (a : FVec Ideal S50000x128 .f32) (x3 : FVec Ideal S128 .f32)
    (p : Fin 50000) (k : Fin 128) :
    addf (F := Ideal) a (val_main_v45 (F := Ideal) x3) (ix2 p k) = a (ix2 p k) + Layer.biasRow x3 (ix2 0 k) := by
  rw [addf_apply, bias_apply]

/-- What follows the aggregation is the layer's result of the aggregated features. -/
theorem tail_eq (a x0 : FVec Ideal S50000x128 .f32) (x3 : FVec Ideal S128 .f32)
    (x4 x5 : FVec Ideal S128x128 .f32) :
    tail a x0 x3 x4 x5 = Layer.layer (R := 50000) a x0 (Layer.biasRow x3) x4 x5 := by
  funext i
  obtain ⟨p, q, rfl⟩ : ∃ (p : Fin 50000) (q : Fin 128), i = ix2 p q := ⟨i 0, i 1, eq_ix2 i⟩
  unfold tail
  rw [addf_apply, addf_apply, biased_apply]
  show _ = Layer.layerAt (R := 50000) a x0 (Layer.biasRow x3) x4 x5 p q
  unfold Layer.layerAt
  refine congrArg₂ (· + ·) (congrArg₂ (· + ·) rfl ?_) ?_
  · unfold val_main_v47
    exact LibDot.dotGeneral_plain_apply dot_S50000x128_S128x128_S50000x128_1_0_0_1_n_n rfl rfl rfl rfl rfl rfl
      none .single x0 x4 (ix2 p q)
  · refine (LibDot.dotGeneral_plain_apply dot_S50000x128_S128x128_S50000x128_1_0_0_1_n_n rfl rfl rfl rfl rfl rfl
      none .single (subf (F := Ideal) (addf (F := Ideal) a (val_main_v45 (F := Ideal) x3)) x0) x5 (ix2 p q)).trans ?_
    refine Finset.sum_congr rfl fun k _ => congrArg (· * x5 (ix2 k q)) ?_
    rw [subf_apply, biased_apply]

/-- The whole computation as one function of the six arguments: the layer's result, with the aggregation of the
    product x · Wc over the edge list in the place of the aggregated features and the bias vector as the bias row. -/
def result (x : FVec Ideal S50000x128 .f32) (ei : (⟨S2x800000, .i32⟩ : BufTy).Contents (Elt Ideal))
    (wc : FVec Ideal S128x128 .f32) (bc : FVec Ideal S128 .f32) (w0 wt : FVec Ideal S128x128 .f32) :
    FVec Ideal S50000x128 .f32 :=
  Layer.layer (R := 50000) (agg (Layer.prod (R := 50000) x wc) ei) x (Layer.biasRow bc) w0 wt

/-- The reference's result is that function of its arguments. -/
theorem reference_eq (x0 : FVec Ideal S50000x128 .f32) (x1 : (⟨S2x800000, .i32⟩ : BufTy).Contents (Elt Ideal))
    (x2 : FVec Ideal S128x128 .f32) (x3 : FVec Ideal S128 .f32) (x4 x5 : FVec Ideal S128x128 .f32) :
    val_main_v51 (F := Ideal) x0 x1 x2 x3 x4 x5 = result x0 x1 x2 x3 x4 x5 := by
  rw [tail_stage, agg_stage, product_stage, tail_eq]
  rfl

end Cert.ReferenceIdeal.RefValue

end
-- ==== Proof.KernelRun.lean ====
/-
  The idealized kernel's run, with its result named.

  @main is two kernel regions among three stretches of host operations. The contents of every buffer at each
  boundary are a fold from the launch memory: after the first region its output array holds what the region's
  write-backs leave, every host stretch applies its operations, and after the second region the result array
  holds what that region's write-backs leave (`Gen.W5`). Every weakly fair execution terminates, and in the final
  memory EVERY buffer that outlives the regions — the arguments and the result among them — holds the last
  boundary's contents. The frame theorem keeps only the arguments of this; here the result array is kept too:
  it ends at what the second region leaves in its output window's array.
-/
import proofs.«161953_j20409684591159_1_alg».proof.Proof.Gen.KernelIdeal.Frame

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, and every buffer that outlives the regions ends at the last
    boundary's contents. -/
theorem run_held : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The run with the result named: the result array ends at what the second region's write-backs leave in its
    output window's array, and the argument arrays end as launched. -/
theorem run_result : θ_run defs (onTc (τ := τ) (main (F := F))) ⟨m, fun _ => 0, ρ⟩ (fun r => ∀ c : Dev nD,
      r.2.mem ((c.tc : Thread nD τ).loc main_v45) = (dat1 (V4 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v45 (by decide))).trans (W5_arr m ρ c 5),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c)⟩)
    (run_held m ρ)

end Cert.KernelIdeal.Result

end
-- ==== Proof.LibMatProd.lean ====
/-
  A matrix product as one function on the extended reals, and the format changes that do not change it.

  General in the extents M, K, N (and, for the gather, in the shapes): nothing here mentions a program.

  `matProd l r` is the rows × contraction by contraction × columns product read entry by entry: the entry at
  (i, j) is the sum over k of l (i, k) · r (k, j). Both printed forms of the product are this function: the host's
  `dot_general` of the whole operands, and a `tpu.matmul` of two operands rounded to a narrower float format and
  accumulated into the zero splat — on the extended reals a change of float format is the identity. A change of format
  around a row gather is the identity too: the gather only re-indexes its operand.
-/
import proofs.«161953_j20409684591159_1_alg».proof.Proof.LibDot
import Idealize.ShloMosaic.Lib.ValueIdx
import Idealize.ShloMosaic.PureOps.Ideal.Laws

noncomputable section

namespace Cert.LibMatProd

open Idealize.ShloMosaic Idealize.ShloMosaic.ValueIdx

variable {M K N : Nat}

/-- The product of an M × K and a K × N matrix of extended reals, entry by entry. -/
def matProd (l : (⟨2, ![M, K]⟩ : Shape).Idx → EReal) (r : (⟨2, ![K, N]⟩ : Shape).Idx → EReal) :
    (⟨2, ![M, N]⟩ : Shape).Idx → EReal :=
  fun y => ∑ k : Fin K, l (ix2 (y 0) k) * r (ix2 k (y 1))

/-- The host's `dot_general` contracting the left operand's second axis with the right operand's first is the
    product. -/
theorem dotGeneral_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ .f32) (r : FVec Ideal ⟨2, ![K, N]⟩ .f32) :
    Host.dotGeneral d none l r = matProd l r :=
  funext fun y => LibDot.dotGeneral_plain_apply d hlc hrc hln hrn hlb hrb none .single l r y

/-- A `tpu.matmul` of the two operands rounded to bf16, into the zero accumulator, is the product of the operands
    themselves: at an entry. -/
theorem matmul_trunc_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (hb : FTy.bits .bf16 < FTy.bits .f32)
    (l : FVec Ideal ⟨2, ![M, K]⟩ .f32) (r : FVec Ideal ⟨2, ![K, N]⟩ .f32) (y : (⟨2, ![M, N]⟩ : Shape).Idx) :
    FloatOps.matmul d none (truncf .bf16 l hb) (truncf .bf16 r hb) (constant ⟨2, ![M, N]⟩ .f32 0x00000000#32) y
      = ∑ k : Fin K, l (ix2 (y 0) k) * r (ix2 k (y 1)) :=
  LibDot.matmul_zero_plain_apply d hlc hrc hln hrn hlb hrb none (truncf .bf16 l hb) (truncf .bf16 r hb) y

variable {s si t : Shape} {w : Nat}

/-- Rounding to a narrower format, gathering rows, and widening again is the gather itself. -/
theorem extf_gather_truncf (d : GatherDims s si t) (hb : FTy.bits .bf16 < FTy.bits .f32)
    (x : FVec Ideal s .f32) (idx : IVec si w) :
    extf .f32 (Host.gather d (truncf .bf16 x hb) idx) hb = Host.gather d x idx :=
  funext fun _ => rfl

end Cert.LibMatProd

end
-- ==== Proof.Body.lean ====
/-
  What the two kernel bodies compute, read at an entry, on the extended reals.

  The first body rounds a 2000 × 128 block of node features and the 128 × 128 weight matrix to bf16 and multiplies
  them into a zero accumulator: on the extended reals a change of float format is the identity, so entry (r, q) of
  its result is the plain product entry `Layer.prodAt`.

  The second body adds the bias row to a block of aggregated features (h = a + b, the one row of b broadcast over
  the 2000 rows), forms x · W0 and (h − x) · Wt by the same kind of product, and adds h + x · W0 + (h − x) · Wt in
  that order: entry (r, q) is `Layer.layerAt`. The identity shape casts drop out, the row broadcast reads the bias at
  the column, and each product is the sum over the contracted coordinate.
-/
import proofs.«161953_j20409684591159_1_alg».proof.Proof.Gen.KernelIdeal.Skeleton
import proofs.«161953_j20409684591159_1_alg».proof.Proof.LibDot
import proofs.«161953_j20409684591159_1_alg».proof.Proof.LibMatProd
import proofs.«161953_j20409684591159_1_alg».proof.Proof.Layer
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Idealize.ShloMosaic Idealize.ShloMosaic.ValueIdx Cert.KernelIdeal Cert.KernelIdeal.Gen

/-- Entry (r, q) of the first body's stored value: the product of the block of node features with the weights. -/
theorem project_apply (x : FVec Ideal S2000x128 .f32) (w : FVec Ideal S128x128 .f32) (r : Fin 2000) (q : Fin 128) :
    k0_pay1 (F := Ideal) x w (ix2 r q) = Layer.prodAt x w r q :=
  LibMatProd.matmul_trunc_apply dot_S2000x128_S128x128_S2000x128_1_0_0_1_n_n rfl rfl rfl rfl rfl rfl
    bitsLt_bf16_f32 x w (ix2 r q)

/-- The block of aggregated features with the bias row added to every row, at an entry. -/
theorem biased_apply (a : FVec Ideal S2000x128 .f32) (b : FVec Ideal S1x128 .f32) (r : Fin 2000) (k : Fin 128) :
    addf (shapeCast S2000x128 a shapeCasts_S2000x128_S2000x128)
        (broadcastTo S2000x128 (shapeCast S1x128 b shapeCasts_S1x128_S1x128) broadcasts_S1x128_S2000x128) (ix2 r k)
      = a (ix2 r k) + b (ix2 0 k) := by
  rw [shapeCast_self, shapeCast_self]
  exact congrArg (a (ix2 r k) + ·) (broadcastTo_1b_ab_apply b broadcasts_S1x128_S2000x128 r k)

/-- Entry (r, q) of the second body's stored value: the layer's result on the block's rows. -/
theorem combine_apply (a x : FVec Ideal S2000x128 .f32) (b : FVec Ideal S1x128 .f32)
    (w0 wt : FVec Ideal S128x128 .f32) (r : Fin 2000) (q : Fin 128) :
    k1_pay1 (F := Ideal) a x b w0 wt (ix2 r q) = Layer.layerAt a x b w0 wt r q := by
  unfold k1_pay1 Layer.layerAt
  refine congrArg₂ (· + ·) (congrArg₂ (· + ·) (biased_apply a b r q) ?_) ?_
  · exact LibMatProd.matmul_trunc_apply dot_S2000x128_S128x128_S2000x128_1_0_0_1_n_n rfl rfl rfl rfl rfl rfl
      bitsLt_bf16_f32 x w0 (ix2 r q)
  · refine (LibDot.matmul_zero_plain_apply dot_S2000x128_S128x128_S2000x128_1_0_0_1_n_n rfl rfl rfl rfl rfl rfl
      none _ _ (ix2 r q)).trans ?_
    exact Finset.sum_congr rfl fun k _ => congrArg (· * wt (ix2 k q))
      (congrArg (· - x (ix2 r k)) (biased_apply a b r k))

end Cert.KernelIdeal.Body

end
-- ==== Proof.ProjectArray.lean ====
/-
  The array the first region leaves: the node features times the first weight matrix, as one function.

  The region's grid has 25 points; point t reads rows 2000·t … 2000·t + 1999 of the node features (all 128 columns)
  and the whole weight matrix, and writes back the same rows of the output. What point t writes back is therefore
  block t of ONE whole-array function, the product x · Wc read entry by entry (an entry of a product depends on one
  row of the left factor only), and the 25 blocks cover the 50000 rows (row p lies in block p / 2000): the array
  ends holding that function. Stated for ANY contents the region is entered with.
-/
import proofs.«161953_j20409684591159_1_alg».proof.Proof.Gen.KernelIdeal.Frame
import proofs.«161953_j20409684591159_1_alg».proof.Proof.Body
import proofs.«161953_j20409684591159_1_alg».proof.Proof.Layer
import Idealize.ShloMosaic.Lib.Pipeline.Value
import Idealize.ShloMosaic.Lib.ValueIdx

set_option maxRecDepth 16384

noncomputable section

namespace Cert.KernelIdeal.Project

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero_off : (![0, 0] : Fin 2 → Nat) = fun _ => 0 := funext fun a => by fin_cases a <;> rfl

/-- The product of the node features with the first weight matrix, entry by entry. -/
abbrev xw (x : FVec Ideal S50000x128 .f32) (w : FVec Ideal S128x128 .f32) : FVec Ideal S50000x128 .f32 :=
  Layer.prod (R := 50000) x w

/-- The index maps over the grid: at point t the feature window and the output window are at row block t, column
    block 0; the weight window is the whole matrix. -/
theorem index_facts : ∀ t : Fin cfg0.N, win0_2.index t (0 : Fin 2) = t.val ∧ win0_2.index t (1 : Fin 2) = 0
    ∧ win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- What point t writes back is block t of the product. -/
theorem flushed_eq (c : Dev nD) (t : Fin cfg0.N) :
    (dat0 V c).flushed 2 t = ((cfg0.win 2).blk t).view.read (Elt Ideal) (xw (V c main_arg0) (V c main_arg2)) := by
  show (cfg0.win 2).cut (grid0.coords t) ((dat0 V c).after 2 t) = _
  rw [after0_2]
  unfold out0_2
  rw [View.canon_unit_zero zero_off]
  simp only [View.ld_unit_zero (S := S2000x128) zero_off, View.ld_unit_zero (S := S128x128) zero_off]
  obtain ⟨e0, e1, e2, e3, e4, e5⟩ := index_facts t
  funext j
  obtain ⟨r, q, rfl⟩ : ∃ (r : Fin 2000) (q : Fin 128), j = ix2 r q := ⟨j 0, j 1, eq_ix2 j⟩
  show k0_pay1 (iblk0 V c 0 t) (iblk0 V c 1 t) (ix2 r q)
    = Layer.prodAt (R := 50000) (V c main_arg0) (V c main_arg2)
        ((((cfg0.win 2).blk t).view.emb (ix2 r q)) 0) ((((cfg0.win 2).blk t).view.emb (ix2 r q)) 1)
  refine (Body.project_apply (iblk0 V c 0 t) (iblk0 V c 1 t) r q).trans ?_
  refine Layer.prodAt_congr _ _ _ _ _ _ _ _ (fun k => ?_) (fun k => ?_)
  · show V c main_arg0 (((cfg0.win 0).blk t).view.emb (ix2 r k)) = V c main_arg0 _
    refine congrArg (V c main_arg0) (funext fun a => Fin.ext ?_)
    match a with
    | ⟨0, _⟩ =>
      show win0_0.index t (0 : Fin 2) * 2000 + 1 * r.val = win0_2.index t (0 : Fin 2) * 2000 + 1 * r.val
      omega
    | ⟨1, _⟩ =>
      show win0_0.index t (1 : Fin 2) * 128 + 1 * k.val = k.val
      omega
  · show V c main_arg2 (((cfg0.win 1).blk t).view.emb (ix2 k q)) = V c main_arg2 _
    refine congrArg (V c main_arg2) (funext fun a => Fin.ext ?_)
    match a with
    | ⟨0, _⟩ =>
      show win0_1.index t (0 : Fin 2) * 128 + 1 * k.val = k.val
      omega
    | ⟨1, _⟩ =>
      show win0_1.index t (1 : Fin 2) * 128 + 1 * q.val = win0_2.index t (1 : Fin 2) * 128 + 1 * q.val
      omega

/-- An index of the array is in point t's block iff each coordinate is in the block's range on its axis. -/
theorem mem_blk (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v0).slice (win0_2.rect t)).set ↔ _
  rw [View.set_slice_whole, Rect.mem_set_unit]
  exact Iff.rfl

/-- Every row of the array lies in some point's block. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 25 := N_0
  let t : Fin cfg0.N := ⟨(i 0).val / 2000, by show (i 0).val / 2000 < grid0.N; omega⟩
  have ht : t.val = (i 0).val / 2000 := rfl
  obtain ⟨e0, e1, e2, e3, e4, e5⟩ := index_facts t
  refine ⟨t, flush0_2 t, ?_⟩
  rw [mem_blk]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 128 ≤ (i 1).val ∧ (i 1).val < win0_2.index t (1 : Fin 2) * 128 + 128
    omega

/-- The array after the region: the product, whatever the region was entered with. -/
theorem array_eq (c : Dev nD) : (dat0 V c).arrAt 2 cfg0.N = xw (V c main_arg0) (V c main_arg2) :=
  (dat0 V c).arrAt_eq_of_cover 2 (xw (V c main_arg0) (V c main_arg2)) (fun t _ => flushed_eq V c t) cover

end Cert.KernelIdeal.Project

end
-- ==== Proof.CombineArray.lean ====
/-
  The array the second region leaves: the layer's result, as one function.

  The region's grid has 25 points; point t reads rows 2000·t … 2000·t + 1999 of the aggregated features and of the
  node features, the one bias row, and the two whole weight matrices, and writes back the same rows of the result.
  An entry of the layer's result depends on one row of the row-indexed operands only, so what point t writes back
  is block t of ONE whole-array function, `Layer.layerAt` of the arrays the region was entered with; the 25 blocks
  cover the 50000 rows (row p lies in block p / 2000), so the array ends holding that function. Stated for ANY
  contents the region is entered with.
-/
import proofs.«161953_j20409684591159_1_alg».proof.Proof.Gen.KernelIdeal.Frame
import proofs.«161953_j20409684591159_1_alg».proof.Proof.Body
import proofs.«161953_j20409684591159_1_alg».proof.Proof.Layer
import Idealize.ShloMosaic.Lib.Pipeline.Value
import Idealize.ShloMosaic.Lib.ValueIdx

set_option maxRecDepth 16384

noncomputable section

namespace Cert.KernelIdeal.Combine

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero_off : (![0, 0] : Fin 2 → Nat) = fun _ => 0 := funext fun a => by fin_cases a <;> rfl

/-- The layer's result, entry by entry, of the aggregated features, the node features, the bias row and the two
    weight matrices. -/
abbrev layer (a x : FVec Ideal S50000x128 .f32) (b : FVec Ideal S1x128 .f32) (w0 wt : FVec Ideal S128x128 .f32) :
    FVec Ideal S50000x128 .f32 :=
  Layer.layer (R := 50000) a x b w0 wt

/-- The index maps over the grid: at point t the two row-blocked input windows and the output window are at row
    block t, column block 0; the bias row and the two weight matrices are whole. -/
theorem index_facts : ∀ t : Fin cfg1.N, win1_5.index t (0 : Fin 2) = t.val ∧ win1_5.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- What point t writes back is block t of the layer's result. -/
theorem flushed_eq (c : Dev nD) (t : Fin cfg1.N) :
    (dat1 V c).flushed 5 t = ((cfg1.win 5).blk t).view.read (Elt Ideal)
      (layer (V c main_v43) (V c main_arg0) (V c main_v44) (V c main_arg4) (V c main_arg5)) := by
  show (cfg1.win 5).cut (grid1.coords t) ((dat1 V c).after 5 t) = _
  rw [after1_5]
  unfold out1_5
  rw [View.canon_unit_zero zero_off]
  simp only [View.ld_unit_zero (S := S2000x128) zero_off, View.ld_unit_zero (S := S128x128) zero_off,
    View.ld_unit_zero (S := S1x128) zero_off]
  obtain ⟨e0, e1, e2, e3, e4, e5, e6, e7, e8, e9, e10, e11⟩ := index_facts t
  funext j
  obtain ⟨r, q, rfl⟩ : ∃ (r : Fin 2000) (q : Fin 128), j = ix2 r q := ⟨j 0, j 1, eq_ix2 j⟩
  show k1_pay1 (iblk1 V c 0 t) (iblk1 V c 1 t) (iblk1 V c 2 t) (iblk1 V c 3 t) (iblk1 V c 4 t) (ix2 r q)
    = Layer.layerAt (R := 50000) (V c main_v43) (V c main_arg0) (V c main_v44) (V c main_arg4) (V c main_arg5)
        ((((cfg1.win 5).blk t).view.emb (ix2 r q)) 0) ((((cfg1.win 5).blk t).view.emb (ix2 r q)) 1)
  refine (Body.combine_apply (iblk1 V c 0 t) (iblk1 V c 1 t) (iblk1 V c 2 t) (iblk1 V c 3 t) (iblk1 V c 4 t) r q).trans ?_
  refine Layer.layerAt_congr _ _ _ _ _ _ _ _ _ _ _ _ _ _ (Fin.ext ?_) (fun k => ?_) (fun k => ?_) (fun k => ?_)
    (fun k => ?_) (fun k => ?_)
  · show q.val = win1_5.index t (1 : Fin 2) * 128 + 1 * q.val
    omega
  · show V c main_v43 (((cfg1.win 0).blk t).view.emb (ix2 r k)) = V c main_v43 _
    refine congrArg (V c main_v43) (funext fun a => Fin.ext ?_)
    match a with
    | ⟨0, _⟩ =>
      show win1_0.index t (0 : Fin 2) * 2000 + 1 * r.val = win1_5.index t (0 : Fin 2) * 2000 + 1 * r.val
      omega
    | ⟨1, _⟩ =>
      show win1_0.index t (1 : Fin 2) * 128 + 1 * k.val = k.val
      omega
  · show V c main_arg0 (((cfg1.win 1).blk t).view.emb (ix2 r k)) = V c main_arg0 _
    refine congrArg (V c main_arg0) (funext fun a => Fin.ext ?_)
    match a with
    | ⟨0, _⟩ =>
      show win1_1.index t (0 : Fin 2) * 2000 + 1 * r.val = win1_5.index t (0 : Fin 2) * 2000 + 1 * r.val
      omega
    | ⟨1, _⟩ =>
      show win1_1.index t (1 : Fin 2) * 128 + 1 * k.val = k.val
      omega
  · show V c main_v44 (((cfg1.win 2).blk t).view.emb (ix2 0 k)) = V c main_v44 _
    refine congrArg (V c main_v44) (funext fun a => Fin.ext ?_)
    match a with
    | ⟨0, _⟩ =>
      show win1_2.index t (0 : Fin 2) * 1 + 1 * 0 = 0
      omega
    | ⟨1, _⟩ =>
      show win1_2.index t (1 : Fin 2) * 128 + 1 * k.val = k.val
      omega
  · show V c main_arg4 (((cfg1.win 3).blk t).view.emb (ix2 k q)) = V c main_arg4 _
    refine congrArg (V c main_arg4) (funext fun a => Fin.ext ?_)
    match a with
    | ⟨0, _⟩ =>
      show win1_3.index t (0 : Fin 2) * 128 + 1 * k.val = k.val
      omega
    | ⟨1, _⟩ =>
      show win1_3.index t (1 : Fin 2) * 128 + 1 * q.val = win1_5.index t (1 : Fin 2) * 128 + 1 * q.val
      omega
  · show V c main_arg5 (((cfg1.win 4).blk t).view.emb (ix2 k q)) = V c main_arg5 _
    refine congrArg (V c main_arg5) (funext fun a => Fin.ext ?_)
    match a with
    | ⟨0, _⟩ =>
      show win1_4.index t (0 : Fin 2) * 128 + 1 * k.val = k.val
      omega
    | ⟨1, _⟩ =>
      show win1_4.index t (1 : Fin 2) * 128 + 1 * q.val = win1_5.index t (1 : Fin 2) * 128 + 1 * q.val
      omega

/-- An index of the array is in point t's block iff each coordinate is in the block's range on its axis. -/
theorem mem_blk (t : Fin cfg1.N) (i : S50000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v45).slice (win1_5.rect t)).set ↔ _
  rw [View.set_slice_whole, Rect.mem_set_unit]
  exact Iff.rfl

/-- Every row of the array lies in some point's block. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : grid1.N = 25 := N_1
  let t : Fin cfg1.N := ⟨(i 0).val / 2000, by show (i 0).val / 2000 < grid1.N; omega⟩
  have ht : t.val = (i 0).val / 2000 := rfl
  obtain ⟨e0, e1, -⟩ := index_facts t
  refine ⟨t, flush1_5 t, ?_⟩
  rw [mem_blk]
  intro a
  match a with
  | ⟨0, _⟩ =>
    show win1_5.index t (0 : Fin 2) * 2000 ≤ (i 0).val ∧ (i 0).val < win1_5.index t (0 : Fin 2) * 2000 + 2000
    omega
  | ⟨1, _⟩ =>
    show win1_5.index t (1 : Fin 2) * 128 ≤ (i 1).val ∧ (i 1).val < win1_5.index t (1 : Fin 2) * 128 + 128
    omega

/-- The array after the region: the layer's result of the arrays the region was entered with. -/
theorem array_eq (c : Dev nD) : (dat1 V c).arrAt 5 cfg1.N
    = layer (V c main_v43) (V c main_arg0) (V c main_v44) (V c main_arg4) (V c main_arg5) :=
  (dat1 V c).arrAt_eq_of_cover 5 (layer (V c main_v43) (V c main_arg0) (V c main_v44) (V c main_arg4) (V c main_arg5))
    (fun t _ => flushed_eq V c t) cover

end Cert.KernelIdeal.Combine

end
-- ==== Proof.LibTRef.lean ====
/-
  A typed reference's two transports cancel.

  A typed reference to a host buffer carries the equation between the buffer's recorded type and the value's type; an
  operation stated over typed references carries contents of the value's type into the buffer's type on the way in and back
  on the way out. Carrying a value in and straight back out is the identity, whatever the equation's proof.
-/
import Idealize.ShloMosaic.Lib.StableHlo

namespace Cert.LibTRef

open Idealize.ShloMosaic Idealize.ShloMosaic.StableHlo

/-- Contents carried into a typed reference's buffer type and back out are the contents. -/
theorem ofBuf_toBuf {sig : RefSig} {T : BufTy} {Val : EltTy → Type} (x : TRef sig T) (v : T.Contents Val) :
    x.ofBuf (x.toBuf v) = v := by
  obtain ⟨r, rfl, _, _⟩ := x
  rfl

end Cert.LibTRef
-- ==== Proof.LibConcat.lean ====
/-
  A concatenation of two pieces with the pieces as arguments.

  `concatenate` takes its operands as a list of (shape, contents) pairs. `concat2` is the two-piece concatenation with
  the two contents as plain arguments — the same function, so that an equation between pieces is an equation between
  concatenations by congruence — and `concat2_fold` says a two-piece `concatenate` is it.
-/
import Idealize.ShloMosaic.PureOps.ShapeOps

namespace Cert.LibConcat

open Idealize.ShloMosaic

/-- The concatenation of `a` and `b` along axis `ax` of the result shape. -/
def concat2 {α : Type} (t : Shape) (ax : Fin t.rank) {s1 s2 : Shape} (a : s1.Idx → α) (b : s2.Idx → α)
    (h : Shape.Concatenates [s1, s2] t ax) : t.Idx → α :=
  concatenate t ax [⟨s1, a⟩, ⟨s2, b⟩] h

/-- A two-piece `concatenate` is `concat2` of its pieces. -/
theorem concat2_fold {α : Type} (t : Shape) (ax : Fin t.rank) {s1 s2 : Shape} (a : s1.Idx → α) (b : s2.Idx → α)
    (h : Shape.Concatenates [s1, s2] t ax) :
    concatenate t ax [⟨s1, a⟩, ⟨s2, b⟩] h = concat2 t ax a b h := rfl

end Cert.LibConcat
-- ==== Proof.Between.lean ====
/-
  The host operations between the two regions, read at the three buffers the second region needs.

  Between the regions @main runs three stretches of host operations: the edge list with self-loops appended, the
  in-degrees, the normalisation, the gathered and scaled rows, the scatter-add by destination, and the reshape of
  the bias vector to one row. They are the reference's own operations, in the reference's own order, applied to the
  first region's output in the place of the reference's product x · Wc: the aggregated features are the ONE
  function `agg` of that output and the edge list, which is never opened. The bias row is the reshape of the bias
  vector.
-/
import proofs.«161953_j20409684591159_1_alg».proof.Proof.Gen.KernelIdeal.Frame
import proofs.«161953_j20409684591159_1_alg».proof.Proof.RefValue
import proofs.«161953_j20409684591159_1_alg».proof.Proof.LibTRef
import proofs.«161953_j20409684591159_1_alg».proof.Proof.LibConcat
import Idealize.ShloMosaic.Lib.StableHlo.Run

noncomputable section

namespace Cert.KernelIdeal.Between

open Idealize.ShloMosaic Idealize.ShloMosaic.TcCoe Idealize.SL.Sem Idealize.ShloMosaic.StableHlo
open Cert.KernelIdeal Cert.KernelIdeal.Gen

/-! The inlined `jnp.where` reads and writes its buffers through typed references; at these buffers the value's type
    IS the buffer's type, so carrying contents in or out is the identity. -/

theorem toBuf_selected (v : (⟨S50000, .f32⟩ : BufTy).Contents (Elt Ideal)) :
    (StableHlo.TRef.of (sig := sig) (T := ⟨S50000, .f32⟩) main_v15).toBuf v = v := rfl
theorem ofBuf_positive (v : (⟨S50000, .i1⟩ : BufTy).Contents (Elt Ideal)) :
    (StableHlo.TRef.of (sig := sig) (T := ⟨S50000, .i1⟩) main_v13).ofBuf v = v := rfl
theorem ofBuf_rsqrt (v : (⟨S50000, .f32⟩ : BufTy).Contents (Elt Ideal)) :
    (StableHlo.TRef.of (sig := sig) (T := ⟨S50000, .f32⟩) main_v14).ofBuf v = v := rfl
theorem ofBuf_zero (v : (⟨S_, .f32⟩ : BufTy).Contents (Elt Ideal)) :
    (StableHlo.TRef.of (sig := sig) (T := ⟨S_, .f32⟩) main_cst_2).ofBuf v = v := rfl

set_option maxHeartbeats 2000000 in
/-- After the three host stretches the aggregated features are `agg` of the first region's output and the edge
    list, whatever the buffers held before. -/
theorem agg_eq (W : Valuation τ sig (Elt Ideal)) :
    StableHlo.after (hostOps1_2 (F := Ideal)) (StableHlo.after (hostOps1_1 (F := Ideal)) (StableHlo.after (hostOps1 (F := Ideal)) W))
        (Proc.devRef .tc main_v43)
      = Cert.ReferenceIdeal.RefValue.agg (W (Proc.devRef .tc main_v0)) (W (Proc.devRef .tc main_arg1)) := by
  dsimp only [hostOps1, hostOps1_1, hostOps1_2]
  simp only [Cert.LibConcat.concat2_fold]
  after_results_simp
  simp only [Cert.LibTRef.ofBuf_toBuf, toBuf_selected, ofBuf_positive, ofBuf_rsqrt, ofBuf_zero, id_eq]
  rfl

/-- After the three host stretches the bias row is the bias vector reshaped. -/
theorem bias_eq (W : Valuation τ sig (Elt Ideal)) :
    StableHlo.after (hostOps1_2 (F := Ideal)) (StableHlo.after (hostOps1_1 (F := Ideal)) (StableHlo.after (hostOps1 (F := Ideal)) W))
        (Proc.devRef .tc main_v44)
      = shapeCast S1x128 (W (Proc.devRef .tc main_arg3)) shapeCasts_S128_S1x128 := by
  dsimp only [hostOps1, hostOps1_1, hostOps1_2]
  after_results_simp
  rfl

end Cert.KernelIdeal.Between

end
-- ==== Proof.KernelValue.lean ====
/-
  The idealized kernel's result as one function of its six arguments.

  The result array ends at what the second region's write-backs leave, which is the layer's result of the arrays
  that region is entered with. Those are read back through the fold of buffer contents: the node features and the
  two weight matrices are the launch contents (no region and no host operation writes an argument); the bias row is
  the bias vector reshaped, whose one row reads the vector at the column; and the aggregated features are the
  aggregation `agg` of the first region's output — the product x · Wc — and the launched edge list. So the result is
  `RefValue.result` of the launch contents, the same function the reference computes.
-/
import proofs.«161953_j20409684591159_1_alg».proof.Proof.Gen.KernelIdeal.Frame
import proofs.«161953_j20409684591159_1_alg».proof.Proof.ProjectArray
import proofs.«161953_j20409684591159_1_alg».proof.Proof.CombineArray
import proofs.«161953_j20409684591159_1_alg».proof.Proof.Between
import proofs.«161953_j20409684591159_1_alg».proof.Proof.RefValue
import proofs.«161953_j20409684591159_1_alg».proof.Proof.Layer
import Idealize.ShloMosaic.Lib.ValueLayout

noncomputable section

namespace Cert.KernelIdeal.Whole

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The first region's output array, when the host stretches start, holds the product x · Wc of the launch
    contents. -/
theorem projected (c : Dev nD) :
    W1 m ρ c (Proc.devRef .tc main_v0)
      = Layer.prod (R := 50000) (m ((c : Thread nD τ).loc main_arg0)) (m ((c : Thread nD τ).loc main_arg2)) :=
  (W1_arr m ρ c 2).trans (Project.array_eq (V0 m ρ) c)

/-- The edge list is as launched when the host stretches start. -/
theorem edges (c : Dev nD) : W1 m ρ c (Proc.devRef .tc main_arg1) = m ((c : Thread nD τ).loc main_arg1) :=
  W1_of_ne m ρ c main_arg1 (by decide)

/-- The bias vector is as launched when the host stretches start. -/
theorem bias (c : Dev nD) : W1 m ρ c (Proc.devRef .tc main_arg3) = m ((c : Thread nD τ).loc main_arg3) :=
  W1_of_ne m ρ c main_arg3 (by decide)

/-- The second region is entered with the aggregated features at the aggregation of x · Wc over the edge list. -/
theorem entered_agg (c : Dev nD) :
    V4 m ρ c main_v43 = Cert.ReferenceIdeal.RefValue.agg
      (Layer.prod (R := 50000) (m ((c : Thread nD τ).loc main_arg0)) (m ((c : Thread nD τ).loc main_arg2)))
      (m ((c : Thread nD τ).loc main_arg1)) := by
  refine (Between.agg_eq (W1 m ρ c)).trans ?_
  rw [projected m ρ c, edges m ρ c]

/-- … with the bias row at the bias vector reshaped, -/
theorem entered_bias (c : Dev nD) :
    V4 m ρ c main_v44 = shapeCast S1x128 (m ((c : Thread nD τ).loc main_arg3)) shapeCasts_S128_S1x128 := by
  refine (Between.bias_eq (W1 m ρ c)).trans ?_
  rw [bias m ρ c]

/-- … and with the node features and the two weight matrices as launched. -/
theorem entered_x (c : Dev nD) : V4 m ρ c main_arg0 = m ((c : Thread nD τ).loc main_arg0) :=
  ((W5_arr m ρ c 1).trans (((dat1 (V4 m ρ) c).arrAt_in 1 rfl _).trans (A_eq1 (V4 m ρ) c 1))).symm.trans
    (W5_main_arg0 m ρ c)
theorem entered_w0 (c : Dev nD) : V4 m ρ c main_arg4 = m ((c : Thread nD τ).loc main_arg4) :=
  ((W5_arr m ρ c 3).trans (((dat1 (V4 m ρ) c).arrAt_in 3 rfl _).trans (A_eq1 (V4 m ρ) c 3))).symm.trans
    (W5_main_arg4 m ρ c)
theorem entered_wt (c : Dev nD) : V4 m ρ c main_arg5 = m ((c : Thread nD τ).loc main_arg5) :=
  ((W5_arr m ρ c 4).trans (((dat1 (V4 m ρ) c).arrAt_in 4 rfl _).trans (A_eq1 (V4 m ρ) c 4))).symm.trans
    (W5_main_arg5 m ρ c)

/-- The result array after the run is `RefValue.result` of the launch contents. -/
theorem result_eq (c : Dev nD) :
    (dat1 (V4 m ρ) c).arrAt 5 cfg1.N
      = Cert.ReferenceIdeal.RefValue.result (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  rw [Combine.array_eq (V4 m ρ) c, entered_agg m ρ c, entered_bias m ρ c, entered_x m ρ c, entered_w0 m ρ c,
    entered_wt m ρ c]
  unfold Cert.ReferenceIdeal.RefValue.result
  exact Layer.layer_bias _ _ _ _ _ _ fun k =>
    shapeCast_a_1a_apply (m ((c : Thread nD τ).loc main_arg3)) shapeCasts_S128_S1x128 0 k

end Cert.KernelIdeal.Whole

end
-- ==== Proof.lean ====
/-
  A graph-convolution layer with a change term: the tiled bf16 kernels against the plain reference, on the extended reals.

  Both programs compute, for node features x (50000 × 128), an edge list, weights Wc, W0, Wt (128 × 128) and a bias b,

      h = agg(x · Wc) + b,        out = h + x · W0 + (h − x) · Wt,

  where agg is the neighbour aggregation (self-loops, in-degrees, symmetric normalisation, gather, scale, scatter-add).
  The kernel computes x · Wc and the last line in two grid kernels of 25 row blocks each, rounding the factors of every
  product to bf16; the aggregation between them is the reference's own host operations. On the extended reals a change
  of float format is the identity and a product accumulated from zero is the plain sum over the contracted coordinate,
  so block by block the two kernels leave the reference's product and the reference's last line (an entry of either
  depends on one row of the row-indexed operands only, and the 25 blocks cover the rows), and the aggregation is one
  and the same function applied to equal arguments. No step moves a factor across a sum or cancels anything, so
  finiteness of the inputs is never used.

  The frames of the two kernel programs are the generated ones; the reference's frame is its generated run with the
  result dropped; the idealization rewrote no operation, so there is nothing to preserve.
-/
import proofs.«161953_j20409684591159_1_alg».proof.Defs
import proofs.«161953_j20409684591159_1_alg».proof.Proof.Gen.Kernel
import proofs.«161953_j20409684591159_1_alg».proof.Proof.Gen.Kernel.Skeleton
import proofs.«161953_j20409684591159_1_alg».proof.Proof.Gen.Kernel.Launch
import proofs.«161953_j20409684591159_1_alg».proof.Proof.Gen.Kernel.Points
import proofs.«161953_j20409684591159_1_alg».proof.Proof.Gen.Kernel.Frame
import proofs.«161953_j20409684591159_1_alg».proof.Proof.Gen.KernelIdeal
import proofs.«161953_j20409684591159_1_alg».proof.Proof.Gen.KernelIdeal.Skeleton
import proofs.«161953_j20409684591159_1_alg».proof.Proof.Gen.KernelIdeal.Launch
import proofs.«161953_j20409684591159_1_alg».proof.Proof.Gen.KernelIdeal.Points
import proofs.«161953_j20409684591159_1_alg».proof.Proof.Gen.KernelIdeal.Frame
import proofs.«161953_j20409684591159_1_alg».proof.Proof.Gen.ReferenceIdeal
import proofs.«161953_j20409684591159_1_alg».proof.Proof.Gen.Pre_finite_inputs
import proofs.«161953_j20409684591159_1_alg».proof.Proof.RefRun
import proofs.«161953_j20409684591159_1_alg».proof.Proof.RefRead
import proofs.«161953_j20409684591159_1_alg».proof.Proof.RefValue
import proofs.«161953_j20409684591159_1_alg».proof.Proof.KernelRun
import proofs.«161953_j20409684591159_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result at `RefValue.result` of the (agreeing) arguments. -/
theorem algebraic : Cert.algebraic_KernelIdeal_ReferenceIdeal := by
  intro m ρ m' ρ' _ hagree
  refine ⟨fun c => Cert.ReferenceIdeal.RefValue.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Whole.result_eq m ρ c), (h c).2⟩)
      (Cert.KernelIdeal.Result.run_result m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v51_eq, Cert.ReferenceIdeal.RefValue.reference_eq,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
